-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x256 .f32) (main_arg1 : IVec S2x3200000 32) (main_arg2 : FVec F S256x1 .f32) (main_arg3 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S100000x1 : Shape := ⟨2, ![100000, 1]⟩
abbrev S5000x256 : Shape := ⟨2, ![5000, 256]⟩
abbrev S5000x1 : Shape := ⟨2, ![5000, 1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S1x1 : Shape := ⟨2, ![1, 1]⟩

abbrev nBuf : Space → Nat
  | .hbm => 50
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x1, .f32⟩
  | .hbm, ⟨3, _⟩ => ⟨S1, .f32⟩
  | .hbm, ⟨4, _⟩ => ⟨S100000x1, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x1, .f32⟩
  | .hbm, ⟨37, _⟩ => ⟨S_, .f32⟩
  | .hbm, ⟨38, _⟩ => ⟨S100000x1, .f32⟩
  | .hbm, ⟨39, _⟩ => ⟨S3200000x1, .i32⟩
  | .hbm, ⟨40, _⟩ => ⟨S100000x1, .f32⟩
  | .hbm, ⟨41, _⟩ => ⟨S100000x1, .f32⟩
  | .hbm, ⟨42, _⟩ => ⟨S100000x1, .f32⟩
  | .hbm, ⟨43, _⟩ => ⟨S100000, .f32⟩
  | .hbm, ⟨44, _⟩ => ⟨S100000x1, .f32⟩
  | .hbm, ⟨45, _⟩ => ⟨S100000x1, .f32⟩
  | .hbm, ⟨46, _⟩ => ⟨S100000x1, .f32⟩
  | .hbm, ⟨47, _⟩ => ⟨S1x1, .f32⟩
  | .hbm, ⟨48, _⟩ => ⟨S100000x1, .f32⟩
  | .hbm, ⟨49, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x1, .f32⟩
  | .local _ .vmem, ⟨3, _⟩ => ⟨S5000x1, .f32⟩
  | .local _ .vmem, ⟨4, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  inb_S5000x1_S5000x1_0_0 : ∀ a, (![0, 0] : Fin 2 → Nat) a + S5000x1.size a ≤ S5000x1.size a
  h_S5000x1 : 0 < S5000x1.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S5000x256_S256x1_S5000x1_1_0_0_1_n_n_wf : DotDims.WF S5000x256 S256x1 S5000x1 [1] [0] [0] [1] [] []
  scatter_S100000_S3200000x1_S3200000_n_0_0_1_wf : ScatterDims.WF S100000 S3200000x1 S3200000 [] [0] [0] 1
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)

variable [Facts₀]

def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x1, .f32⟩
  | .hbm, ⟨3, _⟩ => ⟨S1, .f32⟩
  | .hbm, ⟨4, _⟩ => ⟨S100000, .i32⟩
  | .hbm, ⟨5, _⟩ => ⟨S1x100000, .i32⟩
  | .hbm, ⟨6, _⟩ => ⟨S2x100000, .i32⟩
  | .hbm, ⟨7, _⟩ => ⟨S2x3300000, .i32⟩
  | .hbm, ⟨8, _⟩ => ⟨S1x3300000, .i32⟩
  | .hbm, ⟨9, _⟩ => ⟨S3300000, .i32⟩
  | .hbm, ⟨10, _⟩ => ⟨S1x3300000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x1, .f32⟩
  | .hbm, ⟨46, _⟩ => ⟨S3300000x1, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x1, .f32⟩
  | .hbm, ⟨56, _⟩ => ⟨S3300000x1, .f32⟩
  | .hbm, ⟨57, _⟩ => ⟨S_, .f32⟩
  | .hbm, ⟨58, _⟩ => ⟨S100000x1, .f32⟩
  | .hbm, ⟨59, _⟩ => ⟨S3300000x1, .i32⟩
  | .hbm, ⟨60, _⟩ => ⟨S100000x1, .f32⟩
  | .hbm, ⟨61, _⟩ => ⟨S1x1, .f32⟩
  | .hbm, ⟨62, _⟩ => ⟨S100000x1, .f32⟩
  | .hbm, ⟨63, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  bcast_S1x100000_S2x100000_0_1 : S1x100000.BroadcastsInDim S2x100000 (![0, 1] : Fin 2 → Fin S2x100000.rank)
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x1_S100000x1_1_0_0_1_n_n_wf : DotDims.WF S100000x256 S256x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.LibMaskSums.lean ====
/-
  Sums over a finite index set restricted by a mask, as a pairwise ranking loss needs them.

  * A double sum of products u i · v j over the pairs with p i and q j factors into the product of the two
    masked single sums (any commutative semiring): this is what turns a sum over all (positive, negative)
    pairs into a product of two row sums.
  * On the extended reals, multiplying a finite sum by a non-negative REAL constant distributes over the sum,
    whatever the summands (infinite ones included).
  * A one-bit word is 0 or 1; widened to 32 bits it is the natural number 0 or 1, and a natural number below
    2^31 read back from its 32-bit word as a signed integer is itself: so a wrapping 32-bit count of at most
    2^31 - 1 mask bits is the true count.
-/
import Mathlib.Data.EReal.Operations
import Mathlib.Data.BitVec
import Mathlib.Algebra.BigOperators.Ring.Finset
import Mathlib.Algebra.Order.BigOperators.Group.Finset

namespace LibMaskSums

open Finset

/-- The sum of u i · v j over the pairs (i, j) with p i and q j is the product of the sum of the u i with p i
    and the sum of the v j with q j. -/
theorem sum_mask_mul {R : Type*} [CommSemiring R] {ι κ : Type*} [Fintype ι] [Fintype κ] (p : ι → Prop) (q : κ → Prop)
    [DecidablePred p] [DecidablePred q] (u : ι → R) (v : κ → R) :
    ∑ i, ∑ j, (if p i ∧ q j then u i * v j else 0) = (∑ i, if p i then u i else 0) * (∑ j, if q j then v j else 0) := by
  rw [Finset.sum_mul_sum]
  refine Finset.sum_congr rfl fun i _ => Finset.sum_congr rfl fun j _ => ?_
  by_cases hp : p i <;> by_cases hq : q j <;> simp [hp, hq]

/-- A non-negative real factor distributes over a finite sum of extended reals. -/
theorem sum_mul_coe_of_nonneg {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A one-bit word is 0 or 1. -/
theorem bit_cases (c : BitVec 1) : c = 0#1 ∨ c = 1#1 := by
  by_cases h : c = 1#1
  · exact Or.inr h
  · left
    have := c.isLt
    apply BitVec.eq_of_toNat_eq
    have h' : c.toNat ≠ 1 := fun e => h (BitVec.eq_of_toNat_eq (by simpa using e))
    simp; omega

/-- Flipping a bit (exclusive or with 1) sets it exactly when it was clear. -/
theorem xor_one_eq_one_iff (c : BitVec 1) : c ^^^ 1#1 = 1#1 ↔ ¬ c = 1#1 := by
  rcases bit_cases c with rfl | rfl <;> decide

/-- The complement of a bit is set exactly when the bit was clear. -/
theorem not_eq_one_iff (c : BitVec 1) : ~~~c = 1#1 ↔ ¬ c = 1#1 := by
  rcases bit_cases c with rfl | rfl <;> decide

/-- The conjunction of two bits is set exactly when both are. -/
theorem and_eq_one_iff (c d : BitVec 1) : c &&& d = 1#1 ↔ c = 1#1 ∧ d = 1#1 := by
  rcases bit_cases c with rfl | rfl <;> rcases bit_cases d with rfl | rfl <;> decide

/-- A bit widened to 32 bits is the natural number 0 or 1 as a word. -/
theorem setWidth_bit (c : BitVec 1) : c.setWidth 32 = ((if c = 1#1 then 1 else 0 : ℕ) : BitVec 32) := by
  rcases bit_cases c with rfl | rfl <;> decide

/-- A bit widened to 32 bits and read as a signed integer is 0 or 1. -/
theorem toInt_setWidth_bit (c : BitVec 1) : (c.setWidth 32).toInt = if c = 1#1 then 1 else 0 := by
  rcases bit_cases c with rfl | rfl <;> decide

/-- A natural number below 2^31, stored in a 32-bit word and read back signed, is itself. -/
theorem toInt_natCast_of_lt (n : ℕ) (h : n < 2 ^ 31) : ((n : BitVec 32)).toInt = (n : ℤ) := by
  have hn : ((n : BitVec 32)).toNat = n := by
    rw [BitVec.natCast_eq_ofNat, BitVec.toNat_ofNat]; omega
  rw [BitVec.toInt_eq_toNat_of_lt (by rw [hn]; omega), hn]

/-- The wrapping 32-bit sum, from zero, of the words 0 or 1 marking the pairs (i, j) with p i and q j, read back
    signed, is the number of marked i times the number of marked j, provided the index sets together hold fewer
    than 2^31 pairs. -/
theorem toInt_pair_count {ι κ : Type*} [Fintype ι] [Fintype κ] (p : ι → Prop) (q : κ → Prop)
    [DecidablePred p] [DecidablePred q] (hcard : Fintype.card ι * Fintype.card κ < 2 ^ 31) :
    ((0#32 + ∑ i, ∑ j, ((if p i ∧ q j then 1 else 0 : ℕ) : BitVec 32)).toInt : ℝ)
      = (∑ i, if p i then (1 : ℝ) else 0) * (∑ j, if q j then (1 : ℝ) else 0) := by
  have hb : ∑ i : ι, ∑ j : κ, (if p i ∧ q j then 1 else 0 : ℕ) < 2 ^ 31 := by
    refine lt_of_le_of_lt ?_ hcard
    calc ∑ i : ι, ∑ j : κ, (if p i ∧ q j then 1 else 0 : ℕ)
        ≤ ∑ _i : ι, ∑ _j : κ, 1 :=
          Finset.sum_le_sum fun i _ => Finset.sum_le_sum fun j _ => by split <;> omega
      _ = Fintype.card ι * Fintype.card κ := by simp
  have hw : (0#32 + ∑ i, ∑ j, ((if p i ∧ q j then 1 else 0 : ℕ) : BitVec 32))
      = ((∑ i : ι, ∑ j : κ, (if p i ∧ q j then 1 else 0 : ℕ) : ℕ) : BitVec 32) := by
    rw [show (0#32 : BitVec 32) = 0 from rfl, zero_add]
    push_cast
    rfl
  rw [hw, toInt_natCast_of_lt _ hb]
  have := sum_mask_mul (R := ℝ) p q (fun _ => 1) (fun _ => 1)
  simp only [mul_one] at this
  rw [← this]
  push_cast
  rfl

end LibMaskSums
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.GraphNorm.lean ====
/-
  A one-channel graph convolution with symmetric normalisation, as a function of the edge lists.

  A graph on 100000 nodes is given by 3200000 edges (source word, destination word). An edge is COUNTED at node p when
  its destination word, read as a signed integer, is p; a word outside [0, 100000) is counted nowhere. A word is READ
  as a node by adding 100000 once if it is negative and then clamping into [0, 99999] (`pos`); a word that is a node
  number is read as that node. With deg p = 1 + #{edges counted at p} and d p = deg p ^ (−1/2) (a positive real, since
  deg p ≥ 1 is a real), the convolution of a node signal h is

      out p  =  Σ_{e counted at p} (d (src e) · d (dst e)) · h (src e)  +  (d p · d p) · h p  +  b ,

  the self-loop term being the contribution of one extra edge p → p per node (those 100000 edges appended to the list:
  `outLoops`). For an edge counted at p the destination is read as p, so every summand carries the factor d p, and a
  non-negative real factor distributes over a finite sum of extended reals, whatever the summands:

      out p  =  d p · Σ_{e counted at p} d (src e) · h (src e)  +  (d p · d p) · h p  +  b      (`outFactored`).

  The appended self-loops also account for the "+ 1" of the degree: the loop j → j is counted at p exactly when j = p.
-/
import Idealize.ShloMosaic.PureOps.Ideal
import Idealize.ShloMosaic.Lib.ValueIdx
import proofs.«101846_j34256659153432_2_alg».proof.Proof.LibMaskSums
import proofs.«101846_j34256659153432_2_alg».proof.Proof.LibReciprocalScale

noncomputable section

open scoped BigOperators

namespace GraphNorm

open Idealize.ShloMosaic Idealize.ShloMosaic.ValueIdx

/-! ## Index words -/

/-- A negative index word wraps once by the node count. -/
def wrapW (v : BitVec 32) : BitVec 32 := Scalar.select (IntOp.cmpi .slt v 0#32) (IntOp.addi v 100000#32) v

/-- A non-negative word is left alone. -/
theorem wrapW_of_nonneg (v : BitVec 32) (h : 0 ≤ v.toInt) : wrapW v = v := by
  have hs : v.slt 0#32 = false := by
    simp only [BitVec.slt, BitVec.toInt_zero, decide_eq_false_iff_not, not_lt]; exact h
  unfold wrapW IntOp.cmpi
  simp only [hs]
  exact select_zero _ _

/-- The node an index word is read as: wrapped, then clamped into [0, 99999]. -/
def pos (v : BitVec 32) : Fin 100000 := ⟨min (wrapW v).toInt.toNat (100000 - 1), by omega⟩

/-- A word that is a node number is read as that node. -/
theorem pos_of_toInt (v : BitVec 32) (p : Fin 100000) (h : v.toInt = (p.val : ℤ)) : pos v = p := by
  have h0 : 0 ≤ v.toInt := by omega
  have hp := p.isLt
  apply Fin.ext
  show min (wrapW v).toInt.toNat (100000 - 1) = p.val
  rw [wrapW_of_nonneg v h0]
  omega

/-- A node number stored in a word reads back, signed, as itself. -/
theorem toInt_ofNat_lt (n : ℕ) (h : n < 100000) : (BitVec.ofNat 32 n).toInt = (n : ℤ) := by
  have hn : (BitVec.ofNat 32 n).toNat = n := by rw [BitVec.toNat_ofNat]; omega
  rw [BitVec.toInt_eq_toNat_of_lt (by rw [hn]; omega), hn]

/-! ## Sums -/

/-- The coercion of a finite real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over m + n places is the sum over the first m plus the sum over the last n. -/
theorem sum_split {M : Type*} [AddCommMonoid M] (m n k : ℕ) (h : m + n = k) (f : Fin k → M) :
    ∑ i, f i = ∑ i : Fin m, f ⟨i.val, by omega⟩ + ∑ j : Fin n, f ⟨m + j.val, by omega⟩ := by
  subst h
  exact Fin.sum_univ_add f

/-! ## Degrees and the normaliser -/

/-- x ↦ x^(−1/2) guarded by x > 0, as the programs spell it. -/
def norm (d : EReal) : EReal :=
  Scalar.select (Ideal.cmp .ogt d (Ideal.ofBits .f32 0x00000000#32)) (Ideal.rsqrt d) (Ideal.ofBits .f32 0x00000000#32)

/-- On a real the normaliser is a non-negative real. -/
theorem norm_real (r : ℝ) : ∃ s : ℝ, 0 ≤ s ∧ norm (r : EReal) = (s : EReal) := by
  unfold norm
  rw [Ideal.ofBits_zero_f32]
  by_cases h : (0 : EReal) < (r : EReal)
  · have hc : Ideal.cmp .ogt (r : EReal) 0 = 1#1 := by simp [Ideal.cmp, h]
    rw [hc, select_one]
    have hr : 0 < r := by exact_mod_cast h
    refine ⟨(Real.sqrt r)⁻¹, by positivity, ?_⟩
    show (if r < 0 then (⊥ : EReal) else if r = 0 then ⊤ else (((Real.sqrt r)⁻¹ : ℝ) : EReal)) = _
    rw [if_neg (not_lt.mpr hr.le), if_neg hr.ne']
  · have hc : Ideal.cmp .ogt (r : EReal) 0 = 0#1 := by simp [Ideal.cmp, h]
    rw [hc, select_zero]
    exact ⟨0, le_rfl, by simp⟩

variable (src dst : Fin 3200000 → BitVec 32)

/-- The degree of node q: one for its self-loop plus the edges counted at q. -/
def deg (q : Fin 100000) : EReal :=
  (Ideal.ofBits .f32 0x00000000#32
    + ∑ e : Fin 3200000, if (dst e).toInt = (q.val : ℤ) then Ideal.ofBits .f32 0x3F800000#32 else 0)
  + Ideal.ofBits .f32 0x3F800000#32

/-- The degree is a real number. -/
theorem deg_real (q : Fin 100000) : ∃ r : ℝ, deg dst q = (r : EReal) := by
  refine ⟨(∑ e : Fin 3200000, if (dst e).toInt = (q.val : ℤ) then (1 : ℝ) else 0) + 1, ?_⟩
  have hs : (∑ e : Fin 3200000, if (dst e).toInt = (q.val : ℤ) then (1 : EReal) else 0)
      = ∑ e : Fin 3200000, (((if (dst e).toInt = (q.val : ℤ) then (1 : ℝ) else 0 : ℝ)) : EReal) :=
    Finset.sum_congr rfl fun e _ => by split_ifs <;> simp
  unfold deg
  rw [Ideal.ofBits_zero_f32, LibReciprocalScale.ofBits_one_f32, zero_add, hs, ← coe_sum, ← EReal.coe_one, ← EReal.coe_add]

/-- The normalising factor of node q. -/
def dis (q : Fin 100000) : EReal := norm (deg dst q)

/-- It is a non-negative real. -/
theorem dis_real (q : Fin 100000) : ∃ s : ℝ, 0 ≤ s ∧ dis dst q = (s : EReal) := by
  obtain ⟨r, hr⟩ := deg_real dst q
  unfold dis
  rw [hr]
  exact norm_real r

/-! ## The two forms of the convolution -/

/-- The factored form: the normaliser of the destination taken out of the sum over the edges counted at `p`, the
    self-loop's term added on its own. -/
def outFactored (h : Fin 100000 → EReal) (b : EReal) (p : Fin 100000) : EReal :=
  ((dis dst p * (Ideal.ofBits .f32 0x00000000#32
      + ∑ e : Fin 3200000, if (dst e).toInt = (p.val : ℤ) then dis dst (pos (src e)) * h (pos (src e)) else 0))
    + (dis dst p * dis dst p) * h p) + b

variable (src' dst' : Fin 3300000 → BitVec 32)

/-- The degree from the edge list with the 100000 self-loops appended. -/
def degLoops (q : Fin 100000) : EReal :=
  Ideal.ofBits .f32 0x00000000#32
    + ∑ e : Fin 3300000, if (dst' e).toInt = (q.val : ℤ) then Ideal.ofBits .f32 0x3F800000#32 else 0

/-- The per-edge form over the edge list with the self-loops appended. -/
def outLoops (h : Fin 100000 → EReal) (b : EReal) (p : Fin 100000) : EReal :=
  (Ideal.ofBits .f32 0x00000000#32
    + ∑ e : Fin 3300000, if (dst' e).toInt = (p.val : ℤ)
        then (norm (degLoops dst' (pos (src' e))) * norm (degLoops dst' (pos (dst' e)))) * h (pos (src' e)) else 0) + b

section Loops
variable (hsl : ∀ e : Fin 3200000, src' ⟨e.val, by omega⟩ = src e)
  (hsr : ∀ j : Fin 100000, src' ⟨3200000 + j.val, by omega⟩ = BitVec.ofNat 32 j.val)
  (hdl : ∀ e : Fin 3200000, dst' ⟨e.val, by omega⟩ = dst e)
  (hdr : ∀ j : Fin 100000, dst' ⟨3200000 + j.val, by omega⟩ = BitVec.ofNat 32 j.val)
include hdl hdr

/-- The appended loops add exactly one to each degree. -/
theorem degLoops_eq (q : Fin 100000) : degLoops dst' q = deg dst q := by
  have h1 : (∑ e : Fin 3200000, if (dst' ⟨e.val, by omega⟩).toInt = (q.val : ℤ)
        then Ideal.ofBits .f32 0x3F800000#32 else 0)
      = ∑ e : Fin 3200000, if (dst e).toInt = (q.val : ℤ) then Ideal.ofBits .f32 0x3F800000#32 else 0 :=
    Finset.sum_congr rfl fun e _ => by rw [hdl e]
  have h2 : (∑ j : Fin 100000, if (dst' ⟨3200000 + j.val, by omega⟩).toInt = (q.val : ℤ)
        then Ideal.ofBits .f32 0x3F800000#32 else 0) = Ideal.ofBits .f32 0x3F800000#32 := by
    have : ∀ j : Fin 100000, ((dst' ⟨3200000 + j.val, by omega⟩).toInt = (q.val : ℤ)) ↔ j = q := fun j => by
      rw [hdr j, toInt_ofNat_lt j.val j.isLt, Nat.cast_inj, Fin.val_inj]
    simp only [this, Finset.sum_ite_eq', Finset.mem_univ, if_true]
  unfold degLoops deg
  rw [sum_split 3200000 100000 3300000 rfl]
  beta_reduce
  rw [h1, h2, add_assoc]

include hsl hsr

/-- THE LAW: the per-edge form over the list with self-loops is the factored form over the bare list. -/
theorem outLoops_eq_outFactored (h : Fin 100000 → EReal) (b : EReal) (p : Fin 100000) :
    outLoops src' dst' h b p = outFactored src dst h b p := by
  have hD : ∀ q, norm (degLoops dst' q) = dis dst q := fun q => by rw [degLoops_eq dst dst' hdl hdr q]; rfl
  unfold outLoops outFactored
  simp only [hD]
  rw [sum_split 3200000 100000 3300000 rfl]
  beta_reduce
  -- the self-loops: only the loop at p is counted at p, and it is read as p at both ends
  have hloops : (∑ j : Fin 100000, if (dst' ⟨3200000 + j.val, by omega⟩).toInt = (p.val : ℤ)
        then (dis dst (pos (src' ⟨3200000 + j.val, by omega⟩)) * dis dst (pos (dst' ⟨3200000 + j.val, by omega⟩)))
          * h (pos (src' ⟨3200000 + j.val, by omega⟩)) else 0)
      = (dis dst p * dis dst p) * h p := by
    have hc : ∀ j : Fin 100000, ((dst' ⟨3200000 + j.val, by omega⟩).toInt = (p.val : ℤ)) ↔ j = p := fun j => by
      rw [hdr j, toInt_ofNat_lt j.val j.isLt, Nat.cast_inj, Fin.val_inj]
    have hps : ∀ j : Fin 100000, pos (src' ⟨3200000 + j.val, by omega⟩) = j := fun j => by
      rw [hsr j]; exact pos_of_toInt _ j (toInt_ofNat_lt j.val j.isLt)
    have hpd : ∀ j : Fin 100000, pos (dst' ⟨3200000 + j.val, by omega⟩) = j := fun j => by
      rw [hdr j]; exact pos_of_toInt _ j (toInt_ofNat_lt j.val j.isLt)
    simp only [hc, hps, hpd, Finset.sum_ite_eq', Finset.mem_univ, if_true]
  -- the edges: an edge counted at p has its destination read as p; the factor d p comes out of the sum
  have hedges : (∑ e : Fin 3200000, if (dst' ⟨e.val, by omega⟩).toInt = (p.val : ℤ)
        then (dis dst (pos (src' ⟨e.val, by omega⟩)) * dis dst (pos (dst' ⟨e.val, by omega⟩)))
          * h (pos (src' ⟨e.val, by omega⟩)) else 0)
      = dis dst p * ∑ e : Fin 3200000, if (dst e).toInt = (p.val : ℤ) then dis dst (pos (src e)) * h (pos (src e)) else 0 := by
    obtain ⟨s, hs0, hs⟩ := dis_real dst p
    rw [hs, mul_comm, ← LibMaskSums.sum_mul_coe_of_nonneg _ _ s hs0]
    refine Finset.sum_congr rfl fun e _ => ?_
    rw [hdl e, hsl e]
    split_ifs with hc
    · rw [pos_of_toInt (dst e) p hc, hs, mul_right_comm]
    · rw [zero_mul]
  rw [hloops, hedges, Ideal.ofBits_zero_f32, zero_add, zero_add]

end Loops

/-! ## The result array -/

/-- The convolution's result as one function of the four argument arrays — the node features x : [100000, 256], the
    edge list as two rows of words (row 0 the sources, row 1 the destinations), the weight column W : [256, 1] and
    the bias b : [1]: entry (p, 0) is the factored form at node p of the projected signal h q = Σ_k x[q,k] · W[k,0]. -/
def result (x : (⟨2, ![100000, 256]⟩ : Shape).Idx → EReal) (ei : (⟨2, ![2, 3200000]⟩ : Shape).Idx → BitVec 32)
    (W : (⟨2, ![256, 1]⟩ : Shape).Idx → EReal) (b : (⟨1, ![1]⟩ : Shape).Idx → EReal) :
    (⟨2, ![100000, 1]⟩ : Shape).Idx → EReal :=
  fun i => outFactored (fun e => ei (ix2 (0 : Fin 2) e)) (fun e => ei (ix2 (1 : Fin 2) e))
    (fun q => ∑ k : Fin 256, x (ix2 q k) * W (ix2 k (0 : Fin 1))) (b (ix1 (0 : Fin 1))) (i 0)

end GraphNorm

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.KernelProj.lean ====
/-
  The kernel's one pipelined region computes the projection h = x · W of a 100000 × 256 matrix x onto a
  256 × 1 column W, twenty blocks of 5000 rows at a time. Proved here: the array the region leaves is that
  product, entry by entry — h[i,0] = Σ_k x[i,k] · W[k,0].
-/
import proofs.«101846_j34256659153432_2_alg».proof.Proof.Gen.KernelIdeal.Frame
import proofs.«101846_j34256659153432_2_alg».proof.Proof.LibMatmulIdx
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx Cert.KernelIdeal Cert.KernelIdeal.Gen
open Idealize.ShloMosaic.Pipeline (Dat)

namespace Cert.KernelIdeal.Proj

/-- Row i of the projection: h[i,0] = Σ_k x[i,k]·W[k,0]. -/
def hproj (x : S100000x256.Idx → EReal) (W : S256x1.Idx → EReal) : S100000x1.Idx → EReal :=
  fun i => ∑ k : Fin 256, x (ix2 (i 0) k) * W (ix2 k (i 1))

/-- The zero offsets of a whole-buffer access, as a constant function. -/
theorem zero_offsets : (![0, 0] : Fin 2 → Nat) = fun _ => 0 := funext fun a => by fin_cases a <;> rfl

/-- One block's product at an entry: row p of the 5000 × 256 block against the column, the change of
    format of both factors being the identity at exact arithmetic and the accumulator starting at zero. -/
theorem block_product_apply (x0 : Vec Ideal S5000x256 .f32) (x1 : Vec Ideal S256x1 .f32) (p : Fin 5000) (q : Fin 1) :
    k0_pay1 (F := Ideal) x0 x1 (ix2 p q) = ∑ k : Fin 256, x0 (ix2 p k) * x1 (ix2 k q) := by
  unfold k0_pay1
  exact LibMatmulIdx.matmul2_apply dot_S5000x256_S256x1_S5000x1_1_0_0_1_n_n rfl rfl
    (fun _ _ => rfl)
    (fun j k => DotDims.lhsIdx_val_of_single _ (cl := 1) rfl j k)
    (fun j k => DotDims.rhsIdx_val_of_single _ (cr := 0) rfl j k)
    (fun _ _ => rfl)
    none (truncf .bf16 x0 bitsLt_bf16_f32) (truncf .bf16 x1 bitsLt_bf16_f32) (ix2 p q)

variable (m : (ℓ : Loc nD τ sig) → Buf (Elt Ideal) ℓ)

/-- The product of a row block against the column is that block of the whole product: when row `y 0` of the
    block is row `i 0` of the matrix and the column block is the column, entry `y` of the block's product is
    entry `i` of the projection. -/
theorem block_is_rows (X : S100000x256.Idx → EReal) (W : S256x1.Idx → EReal)
    (x0 : Vec Ideal S5000x256 .f32) (x1 : Vec Ideal S256x1 .f32) (y : S5000x1.Idx) (i : S100000x1.Idx)
    (hx0 : ∀ k : Fin 256, x0 (ix2 (y 0) k) = X (ix2 (i 0) k))
    (hx1 : ∀ k : Fin 256, x1 (ix2 k (y 1)) = W (ix2 k (i 1))) :
    k0_pay1 (F := Ideal) x0 x1 y = hproj X W i := by
  unfold hproj
  refine (congrArg (k0_pay1 (F := Ideal) x0 x1) (eq_ix2 y)).trans ?_
  refine (block_product_apply x0 x1 (y 0) (y 1)).trans ?_
  exact Finset.sum_congr rfl fun k _ => by rw [hx0 k, hx1 k]

/-- The printed index maps, decided over the twenty grid points: at point t the matrix's block and the
    result's block are both row block t (column block 0), and the column's block is the column itself. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 19 ∧ win0_2.index t (1 : Fin 2) = 0 :=
  (by decide +kernel : ∀ t : Fin grid0.N, _)

/-- Every one of the twenty row blocks of the result is some grid point's. -/
theorem every_row_block : ∀ q : Fin 20, ∃ t : Fin cfg0.N, win0_2.index t = ![q.val, 0] :=
  (by decide +kernel : ∀ q : Fin 20, ∃ t : Fin grid0.N, win0_2.index t = ![q.val, 0])

/-- What grid point t writes back is row block t of the projection of the arrays as the region finds them. -/
theorem written_back_eq (c : Dev nD) (t : Fin cfg0.N) :
    (dats (F := Ideal) m 0 c).flushed 2 t
      = ((cfg0.win 2).blk t).view.read (Elt Ideal) (hproj (V m c main_arg0) (V m c main_arg2)) := by
  show (cfg0.win 2).cut (grid0.coords t) ((dats m 0 c).after 2 t) = _
  rw [after0_2]
  unfold out0_2
  rw [View.canon_unit_zero zero_offsets]
  simp only [View.ld_unit_zero (S := S5000x256) zero_offsets, View.ld_unit_zero (S := S256x1) zero_offsets]
  obtain ⟨e0, e1, e2, e3, e4, e5⟩ := block_indices t
  funext j
  show k0_pay1 (F := Ideal) (iblk m c 0 t) (iblk m c 1 t) j
    = hproj (V m c main_arg0) (V m c main_arg2) (((cfg0.win 2).blk t).view.emb j)
  refine block_is_rows (V m c main_arg0) (V m c main_arg2) (iblk m c 0 t) (iblk m c 1 t) j
    (((cfg0.win 2).blk t).view.emb j) (fun k => ?_) (fun k => ?_)
  · show V m c main_arg0 (((cfg0.win 0).blk t).view.emb (ix2 (j 0) k))
      = V m c main_arg0 (ix2 ((((cfg0.win 2).blk t).view.emb j) 0) k)
    refine congrArg (V m c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  · show V m c main_arg2 (((cfg0.win 1).blk t).view.emb (ix2 k (j 1)))
      = V m c main_arg2 (ix2 k ((((cfg0.win 2).blk t).view.emb j) 1))
    refine congrArg (V m c main_arg2) (funext fun a => Fin.ext ?_)
    match a with
    | ⟨0, _⟩ =>
      show win0_1.index t (0 : Fin 2) * 256 + 1 * k.val = k.val
      omega
    | ⟨1, _⟩ =>
      show win0_1.index t (1 : Fin 2) * 1 + 1 * (j 1).val = win0_2.index t (1 : Fin 2) * 1 + 1 * (j 1).val
      omega

/-- An entry of the result is in grid point t's block iff each coordinate is in the block's range on its axis. -/
theorem mem_block (t : Fin cfg0.N) (i : S100000x1.Idx) :
    i ∈ ((cfg0.win 2).blk t).view.set ↔ ∀ a : Fin 2, win0_2.index t a * S5000x1.size a ≤ (i a).val
      ∧ (i a).val < win0_2.index t a * S5000x1.size a + S5000x1.size a := by
  show i ∈ ((View.whole main_v0).slice (win0_2.rect t)).set ↔ _
  rw [View.set_slice_whole, Rect.mem_set_unit]
  exact Iff.rfl

/-- The twenty row blocks tile the result: row r is written back by the grid point of row block r / 5000. -/
theorem covered (i : S100000x1.Idx) :
    ∃ t : Fin cfg0.N, (cfg0.win 2).flush t = true ∧ i ∈ ((cfg0.win 2).blk t).view.set := by
  have hi0 : (i 0).val < 100000 := (i 0).isLt
  have hi1 : (i 1).val < 1 := (i 1).isLt
  obtain ⟨t, ht⟩ := every_row_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 1 ≤ (i 1).val ∧ (i 1).val < win0_2.index t (1 : Fin 2) * 1 + 1
    omega

/-- The array the region leaves is the projection of the argument arrays, entry by entry. -/
theorem final (c : Dev nD) :
    (dats (F := Ideal) m 0 c).arrAt 2 cfg0.N
      = hproj (m ((c.tc : Thread nD τ).loc main_arg0)) (m ((c.tc : Thread nD τ).loc main_arg2)) := by
  have h := (dats (F := Ideal) m 0 c).arrAt_eq_of_cover 2 (hproj (V m c main_arg0) (V m c main_arg2))
    (fun t _ => written_back_eq m c t) covered
  rw [V_main_arg0, V_main_arg2] at h
  exact h

end Cert.KernelIdeal.Proj

end
-- ==== Proof.KernelTailDefs.lean ====
/-
  The whole-array operations that finish the graph convolution once the projected node signal h = x · W is in
  memory, each named once: the two rows of the edge list as the source and the destination words; the degrees (a
  one for every edge summed into its destination's entry, plus one); the normaliser deg ^ (−1/2), zero where the
  degree is not positive; the source words with a negative word wrapped once by the node count; and the result —
  the normaliser times the segment sum over the destinations of the normalised signal gathered at the sources,
  plus the squared normaliser times the signal, plus the bias.
-/
import proofs.«101846_j34256659153432_2_alg».proof.Proof.Gen.KernelIdeal
import Idealize.ShloMosaic.PureOps.Ideal

noncomputable section

open Idealize.ShloMosaic Idealize.SL.Sem Cert.KernelIdeal Cert.KernelIdeal.Gen

namespace Cert.KernelIdeal.Tail

/-- Row 0 of the edge list, the source words, as a vector. -/
def edgeRow0 (ei : S2x3200000.Idx → BitVec 32) : S3200000.Idx → BitVec 32 :=
  fun i => shapeCast S3200000 (extractStridedSlice S1x3200000 ![0, 0] ei slices_S2x3200000_S1x3200000_0_0)
    shapeCasts_S1x3200000_S3200000 i

/-- Row 1 of the edge list, the destination words, as a vector. -/
def edgeRow1 (ei : S2x3200000.Idx → BitVec 32) : S3200000.Idx → BitVec 32 :=
  fun i => shapeCast S3200000 (extractStridedSlice S1x3200000 ![1, 0] ei slices_S2x3200000_S1x3200000_1_0)
    shapeCasts_S1x3200000_S3200000 i

/-- The degrees: a one for every edge summed into its destination's entry, starting from zero, plus one. -/
def degVec (dv : S3200000.Idx → BitVec 32) : FVec Ideal S100000 .f32 :=
  addf (F := Ideal)
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 dv)
      (broadcastInDim S3200000 ![] bcast_S_S3200000 (constant (F := Ideal) S_ .f32 0x3F800000#32)))
    (broadcastInDim S100000 ![] bcast_S_S100000 (constant (F := Ideal) S_ .f32 0x3F800000#32))

/-- The normaliser: the reciprocal square root of the degree where the degree is positive, zero elsewhere. -/
def disVec (dv : S3200000.Idx → BitVec 32) : FVec Ideal S100000 .f32 :=
  select
    (cmpf (F := Ideal) .ogt (degVec dv) (broadcastInDim S100000 ![] bcast_S_S100000 (constant (F := Ideal) S_ .f32 0x00000000#32)))
    (Host.rsqrt (F := Ideal) (degVec dv))
    (broadcastInDim S100000 ![] bcast_S_S100000 (constant (F := Ideal) S_ .f32 0x00000000#32))

/-- The source words with every negative word wrapped once by the node count. -/
def wrapVec (sv : S3200000.Idx → BitVec 32) : S3200000.Idx → BitVec 32 :=
  select (cmpi .slt sv (broadcastInDim S3200000 ![] bcast_S_S3200000 (constantI S_ 32 0#32)))
    (addi sv (broadcastInDim S3200000 ![] bcast_S_S3200000 (constantI S_ 32 100000#32))) sv

/-- The result of the whole-array operations, from the projected signal `h`, the edge list and the bias. -/
def tailOf (h : FVec Ideal S100000x1 .f32) (ei : S2x3200000.Idx → BitVec 32) (b : FVec Ideal S1 .f32) : FVec Ideal S100000x1 .f32 :=
  addf (F := Ideal)
    (addf (F := Ideal)
      (mulf (F := Ideal)
        (broadcastInDim S100000x1 ![0] bcast_S100000_S100000x1_0 (disVec (edgeRow1 ei)))
        (Host.scatterAdd (F := Ideal) scatter_S100000x1_S3200000x1_S3200000x1_1_0_0_1
          (broadcastInDim S100000x1 ![] bcast_S_S100000x1 (constant (F := Ideal) S_ .f32 0x00000000#32))
          (broadcastInDim S3200000x1 ![0] bcast_S3200000_S3200000x1_0 (edgeRow1 ei))
          (Host.gather gather_S100000x1_S3200000x1_S3200000x1_1_0_n_n_0_1_11
            (mulf (F := Ideal) (broadcastInDim S100000x1 ![0] bcast_S100000_S100000x1_0 (disVec (edgeRow1 ei))) h)
            (broadcastInDim S3200000x1 ![0] bcast_S3200000_S3200000x1_0 (wrapVec (edgeRow0 ei))))))
      (mulf (F := Ideal)
        (broadcastInDim S100000x1 ![0] bcast_S100000_S100000x1_0
          (mulf (F := Ideal) (disVec (edgeRow1 ei)) (disVec (edgeRow1 ei))))
        h))
    (broadcastInDim S100000x1 ![0, 1] bcast_S1x1_S100000x1_0_1 (broadcastInDim S1x1 ![1] bcast_S1_S1x1_1 b))

end Cert.KernelIdeal.Tail

end
-- ==== Proof.LibSegmentIdx.lean ====
/-
  Gathers and accumulating scatters along the leading axis, read at an index.

  Indexing a table by an integer column, `x[idx]`, and summing update rows into the rows an integer column names
  (a segment sum) are the two halves of message passing on a graph. With the index column of shape [E, 1]:

  * a gather from a vector x : [N], or from a one-column matrix x : [N, 1], reads at position e the entry of x at
    the e-th index, read as a signed integer and clamped into [0, N − 1];
  * an accumulating scatter into a vector [N], or into a one-column matrix [N, 1], lands update e on row i exactly
    when the e-th index, read as a signed integer and NOT clamped, equals i; an index outside [0, N) lands nowhere;
  * hence, at exact arithmetic, row i of the scattered sum is the operand's row i plus the sum over all e of
    "update e if the e-th index equals i, else 0".
-/
import Idealize.ShloMosaic.Lib.ValueIdx
import Idealize.ShloMosaic.PureOps.Ideal.Laws

noncomputable section

open scoped BigOperators

namespace LibSegmentIdx

open Idealize.ShloMosaic Idealize.ShloMosaic.ValueIdx

/-! ## Gathers -/

section Gather
variable {α : Type}

/-- The dimension numbers of `x[idx]` for a vector `x : [N]` and an index column `idx : [E, 1]`, result `[E]`. -/
abbrev takeVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of `x[idx]` is `x` at the `e`-th index, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (takeVecDims N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (takeVecDims N E wf).start j idx 0 + (takeVecDims N E wf).batchCoord j 0 + (takeVecDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeVecDims N E wf).startIndexMap from List.mem_singleton.mpr rfl)]
  have hsi : (takeVecDims N E wf).siIdx j ⟨List.idxOf (0 : Fin 1) (takeVecDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a one-column matrix `x : [N, 1]` and `idx : [E, 1]`, result `[E, 1]`. -/
abbrev takeRowDims (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of `x[idx]` is the row of `x` at the `e`-th index, read signed and clamped into `[0, N − 1]`. -/
theorem gather_row_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (takeRowDims N E wf) x idx j
      = x (ix2 ⟨min (idx (ix2 (j 0) (0 : Fin 1))).toInt.toNat (N - 1), by omega⟩ (0 : Fin 1)) := by
  unfold Host.gather
  congr 1
  funext a
  refine Fin.ext ?_
  match a with
  | ⟨0, _⟩ =>
    show (takeRowDims N E wf).start j idx 0 + (takeRowDims N E wf).batchCoord j 0 + (takeRowDims N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N E wf).startIndexMap from List.mem_singleton.mpr rfl)]
    have hsi : (takeRowDims N E wf).siIdx j ⟨List.idxOf (0 : Fin 2) (takeRowDims N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    have h1 := (takeRowDims N E wf).lt j idx 1
    have : (⟨2, ![N, 1]⟩ : Shape).size 1 = 1 := rfl
    show (takeRowDims N E wf).start j idx 1 + (takeRowDims N E wf).batchCoord j 1 + (takeRowDims N E wf).offCoord j 1 = 0
    omega

end Gather

/-! ## Accumulating scatters -/

section Scatter

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

/-- A column's index set `[n, 1]` is its row coordinate's range. -/
def idxEquivCol {n : Nat} : (⟨2, ![n, 1]⟩ : Shape).Idx ≃ Fin n where
  toFun i := i 0
  invFun e := ix2 e (0 : Fin 1)
  left_inv i := funext fun a => match a with
    | ⟨0, _⟩ => rfl
    | ⟨1, _⟩ => Fin.ext (by have := idx2_lt1 i; show (0 : ℕ) = (i 1).val; omega)
  right_inv _ := rfl

/-- The dimension numbers of a segment sum into a vector `[N]`: updates `[E]`, index column `[E, 1]`. -/
abbrev addVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `i` exactly when the `e`-th index, read signed, is `i`. -/
theorem resultIdx?_vec_iff {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (addVecDims N E wf).resultIdx? j idx = some i ↔ (idx (ix2 (j 0) (0 : Fin 1))).toInt = ((i 0).val : ℤ) := by
  have hi : (i 0).val < N := (i 0).isLt
  have hstart : (addVecDims N E wf).start j idx 0 = (idx (ix2 (j 0) (0 : Fin 1))).toInt := by
    unfold ScatterDims.start
    rw [dif_pos (show (0 : Fin 1) ∈ (addVecDims N E wf).scatterDimsToOperandDims from List.mem_singleton.mpr rfl)]
    have hsi : (addVecDims N E wf).siIdx j ⟨List.idxOf (0 : Fin 1) (addVecDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin : (addVecDims N E wf).window j 0 = 0 := by
    unfold ScatterDims.window
    rw [dif_neg (by simp [ScatterDims.sKept, Shape.kept])]
  unfold ScatterDims.resultIdx?
  split
  · rename_i h
    rw [Option.some_inj]
    constructor
    · intro he
      have h0 := congrArg (fun f => (f 0).val) he
      have hh := h 0
      simp only [hstart, hwin] at h0 hh
      omega
    · intro he
      funext a
      obtain rfl : a = 0 := Subsingleton.elim _ _
      refine Fin.ext ?_
      show ((addVecDims N E wf).start j idx 0 + ((addVecDims N E wf).window j 0 : ℕ)).toNat = (i 0).val
      rw [hstart, hwin]
      omega
  · rename_i h
    constructor
    · intro he; exact absurd he (by simp)
    · intro he
      exfalso
      apply h
      intro a
      obtain rfl : a = 0 := Subsingleton.elim _ _
      rw [hstart, hwin]
      have : (⟨1, ![N]⟩ : Shape).size 0 = N := rfl
      omega

/-- At exact arithmetic, entry `i` of the segment sum into a vector is the operand's entry plus the sum over all
    `e` of "update `e` if the `e`-th index is `i`, else 0". -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : (⟨1, ![N]⟩ : Shape).Idx) :
    Host.scatterAdd (addVecDims N E wf) x idx upd i
      = x i + ∑ e : Fin E, if (idx (ix2 e (0 : Fin 1))).toInt = ((i 0).val : ℤ) then upd (ix1 e) else 0 := by
  show Ideal.hostScatterAdd (addVecDims N E wf) x idx upd i = _
  unfold Ideal.hostScatterAdd
  congr 1
  rw [Finset.sum_filter]
  refine Fintype.sum_equiv idxEquiv1 _ _ (fun j => ?_)
  obtain ⟨e, rfl⟩ : ∃ e, j = ix1 e := ⟨j 0, eq_ix1 j⟩
  exact if_congr (resultIdx?_vec_iff wf idx (ix1 e) i) rfl rfl

/-- The dimension numbers of a segment sum into a one-column matrix `[N, 1]`: updates `[E, 1]`, index column `[E, 1]`. -/
abbrev addRowDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when the `e`-th index, read signed, is `i`'s row. -/
theorem resultIdx?_row_iff {N E w : Nat} (wf : ScatterDims.WF ⟨2, ![N, 1]⟩ ⟨2, ![E, 1]⟩ ⟨2, ![E, 1]⟩ [1] [0] [0] 1)
    (idx : IVec ⟨2, ![E, 1]⟩ w) (j : (⟨2, ![E, 1]⟩ : Shape).Idx) (i : (⟨2, ![N, 1]⟩ : Shape).Idx) :
    (addRowDims N E wf).resultIdx? j idx = some i ↔ (idx (ix2 (j 0) (0 : Fin 1))).toInt = ((i 0).val : ℤ) := by
  have hi0 : (i 0).val < N := idx2_lt0 i
  have hi1 : (i 1).val < 1 := idx2_lt1 i
  have hj1 : (j 1).val < 1 := idx2_lt1 j
  have hstart0 : (addRowDims N E wf).start j idx 0 = (idx (ix2 (j 0) (0 : Fin 1))).toInt := by
    unfold ScatterDims.start
    rw [dif_pos (show (0 : Fin 2) ∈ (addRowDims N E wf).scatterDimsToOperandDims from List.mem_singleton.mpr rfl)]
    have hsi : (addRowDims N E wf).siIdx j ⟨List.idxOf (0 : Fin 2) (addRowDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowDims N E wf).window j 0 = 0 := by
    unfold ScatterDims.window
    rw [dif_neg (by simp [ScatterDims.sKept, Shape.kept])]
  have hstart1 : (addRowDims N E wf).start j idx 1 = 0 := by
    unfold ScatterDims.start
    rw [dif_neg (by simp [ScatterDims.sKept, Shape.kept])]
  have hwin1 : (addRowDims N E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have hh := h 0
      simp only [hstart0, hwin0] at h0 hh
      omega
    · intro he
      funext a
      refine Fin.ext ?_
      match a with
      | ⟨0, _⟩ =>
        show ((addRowDims N E wf).start j idx 0 + ((addRowDims N E wf).window j 0 : ℕ)).toNat = (i 0).val
        rw [hstart0, hwin0]
        omega
      | ⟨1, _⟩ =>
        show ((addRowDims N E wf).start j idx 1 + ((addRowDims N E wf).window j 1 : ℕ)).toNat = (i 1).val
        rw [hstart1, hwin1]
        omega
  · rename_i h
    constructor
    · intro he; exact absurd he (by simp)
    · intro he
      exfalso
      apply h
      intro a
      match a with
      | ⟨0, _⟩ =>
        show 0 ≤ (addRowDims N E wf).start j idx 0 + ((addRowDims N E wf).window j 0 : ℕ)
          ∧ (addRowDims N E wf).start j idx 0 + ((addRowDims N E wf).window j 0 : ℕ) < (N : ℤ)
        rw [hstart0, hwin0]
        omega
      | ⟨1, _⟩ =>
        show 0 ≤ (addRowDims N E wf).start j idx 1 + ((addRowDims N E wf).window j 1 : ℕ)
          ∧ (addRowDims N E wf).start j idx 1 + ((addRowDims N E wf).window j 1 : ℕ) < ((1 : ℕ) : ℤ)
        rw [hstart1, hwin1]
        omega

/-- At exact arithmetic, row `i` of the segment sum into a one-column matrix is the operand's row plus the sum over
    all `e` of "update row `e` if the `e`-th index is `i`'s row, else 0". -/
theorem scatterAdd_row_apply {N E w : Nat} {φ : FTy} (wf : ScatterDims.WF ⟨2, ![N, 1]⟩ ⟨2, ![E, 1]⟩ ⟨2, ![E, 1]⟩ [1] [0] [0] 1)
    (x : FVec Ideal ⟨2, ![N, 1]⟩ φ) (idx : IVec ⟨2, ![E, 1]⟩ w) (upd : FVec Ideal ⟨2, ![E, 1]⟩ φ)
    (i : (⟨2, ![N, 1]⟩ : Shape).Idx) :
    Host.scatterAdd (addRowDims N E wf) x idx upd i
      = x i + ∑ e : Fin E, if (idx (ix2 e (0 : Fin 1))).toInt = ((i 0).val : ℤ) then upd (ix2 e (0 : Fin 1)) else 0 := by
  show Ideal.hostScatterAdd (addRowDims N E wf) x idx upd i = _
  unfold Ideal.hostScatterAdd
  congr 1
  rw [Finset.sum_filter]
  refine Fintype.sum_equiv idxEquivCol _ _ (fun j => ?_)
  obtain ⟨e, rfl⟩ : ∃ e, j = ix2 e (0 : Fin 1) := ⟨j 0, funext fun a => match a with
    | ⟨0, _⟩ => rfl
    | ⟨1, _⟩ => Fin.ext (by have := idx2_lt1 j; show (j 1).val = 0; omega)⟩
  exact if_congr (resultIdx?_row_iff wf idx (ix2 e (0 : Fin 1)) i) rfl rfl

end Scatter

end LibSegmentIdx

end
-- ==== Proof.KernelTailEntry.lean ====
/-
  The kernel's whole-array operations after its region, read at an entry.

  With the projected signal h in hand, the program forms the degree vector (a segment sum of ones over the
  destination words, plus one), the normaliser vector d (deg^(−1/2) where deg > 0), gathers d · h at the node each
  source word is read as, sums those rows into the rows the destination words name, multiplies row p by d p, and
  adds d p · d p · h p and the bias. Every step is read here at one entry — first over arbitrary vectors, so that the
  large sums are never opened, then at the program's own — and the entry is the factored form of the convolution.
-/
import proofs.«101846_j34256659153432_2_alg».proof.Proof.Gen.KernelIdeal.Frame
import proofs.«101846_j34256659153432_2_alg».proof.Proof.KernelTailDefs
import proofs.«101846_j34256659153432_2_alg».proof.Proof.GraphNorm
import proofs.«101846_j34256659153432_2_alg».proof.Proof.LibSegmentIdx
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx Cert.KernelIdeal Cert.KernelIdeal.Gen
open scoped BigOperators

namespace Cert.KernelIdeal.Tail

/-! ## Layout operations at an entry -/

section Layout
variable {α : Type}

/-- A scalar broadcast to any shape reads the scalar everywhere. -/
theorem splat_apply {s : Shape} (fact : S_.BroadcastsInDim s (![] : Fin 0 → Fin s.rank)) (x : S_.Idx → α) (i : s.Idx) :
    broadcastInDim s ![] fact x i = x ix0 :=
  broadcastInDim_apply _ fact x i ix0 (fun a => a.elim0)

/-- A vector of 3200000 entries laid out as a column: row e is entry e. -/
theorem col_edges_apply (v : S3200000.Idx → α) (e : Fin 3200000) :
    broadcastInDim S3200000x1 ![0] bcast_S3200000_S3200000x1_0 v (ix2 e (0 : Fin 1)) = v (ix1 e) :=
  broadcastInDim_apply _ bcast_S3200000_S3200000x1_0 v (ix2 e (0 : Fin 1)) (ix1 e) (fun a => match a with
    | ⟨0, _⟩ => by show e.val = if (3200000 : Nat) = 1 then 0 else e.val; rw [if_neg (by decide)])

/-- A vector of 100000 entries laid out as a column: row q is entry q. -/
theorem col_nodes_apply (v : S100000.Idx → α) (q : Fin 100000) :
    broadcastInDim S100000x1 ![0] bcast_S100000_S100000x1_0 v (ix2 q (0 : Fin 1)) = v (ix1 q) :=
  broadcastInDim_apply _ bcast_S100000_S100000x1_0 v (ix2 q (0 : Fin 1)) (ix1 q) (fun a => match a with
    | ⟨0, _⟩ => by show q.val = if (100000 : Nat) = 1 then 0 else q.val; rw [if_neg (by decide)])

/-- The one bias entry broadcast down the column. -/
theorem bias_apply (b : S1.Idx → α) (q : Fin 100000) :
    broadcastInDim S100000x1 ![0, 1] bcast_S1x1_S100000x1_0_1 (broadcastInDim S1x1 ![1] bcast_S1_S1x1_1 b) (ix2 q (0 : Fin 1))
      = b (ix1 (0 : Fin 1)) := by
  refine (broadcastInDim_apply _ bcast_S1x1_S100000x1_0_1 _ (ix2 q (0 : Fin 1)) (ix2 (0 : Fin 1) (0 : Fin 1)) (fun a => match a with
    | ⟨0, _⟩ => by show (0 : ℕ) = if (1 : Nat) = 1 then 0 else q.val; rw [if_pos rfl]
    | ⟨1, _⟩ => by show (0 : ℕ) = if (1 : Nat) = 1 then 0 else 0; rw [if_pos rfl])).trans ?_
  exact broadcastInDim_apply _ bcast_S1_S1x1_1 b (ix2 (0 : Fin 1) (0 : Fin 1)) (ix1 (0 : Fin 1)) (fun a => match a with
    | ⟨0, _⟩ => by show (0 : ℕ) = if (1 : Nat) = 1 then 0 else 0; rw [if_pos rfl])

end Layout

variable (ei : S2x3200000.Idx → BitVec 32)

/-- Entry e of the source row is the edge list at (0, e). -/
theorem edgeRow0_apply (e : Fin 3200000) : edgeRow0 ei (ix1 e) = ei (ix2 (0 : Fin 2) e) := by
  unfold edgeRow0
  refine (shapeCast_apply (extractStridedSlice S1x3200000 ![0, 0] ei slices_S2x3200000_S1x3200000_0_0)
    shapeCasts_S1x3200000_S3200000 (ix1 e) (ix2 (0 : Fin 1) e)
    (by rewrite [Shape.rowMajor_val_two, Shape.rowMajor_val_one]; show 0 * 3200000 + e.val = e.val; omega)).trans ?_
  exact extractStridedSlice_apply ![0, 0] ei slices_S2x3200000_S1x3200000_0_0 (ix2 (0 : Fin 1) e) (ix2 (0 : Fin 2) e)
    (fun a => match a with
      | ⟨0, _⟩ => by show (0 : ℕ) = 0 + 0; omega
      | ⟨1, _⟩ => by show e.val = 0 + e.val; omega)

/-- Entry e of the destination row is the edge list at (1, e). -/
theorem edgeRow1_apply (e : Fin 3200000) : edgeRow1 ei (ix1 e) = ei (ix2 (1 : Fin 2) e) := by
  unfold edgeRow1
  refine (shapeCast_apply (extractStridedSlice S1x3200000 ![1, 0] ei slices_S2x3200000_S1x3200000_1_0)
    shapeCasts_S1x3200000_S3200000 (ix1 e) (ix2 (0 : Fin 1) e)
    (by rewrite [Shape.rowMajor_val_two, Shape.rowMajor_val_one]; show 0 * 3200000 + e.val = e.val; omega)).trans ?_
  exact extractStridedSlice_apply ![1, 0] ei slices_S2x3200000_S1x3200000_1_0 (ix2 (0 : Fin 1) e) (ix2 (1 : Fin 2) e)
    (fun a => match a with
      | ⟨0, _⟩ => by show (1 : ℕ) = 1 + 0; omega
      | ⟨1, _⟩ => by show e.val = 0 + e.val; omega)

/-- A wrapped word, entry by entry. -/
theorem wrapVec_apply (sv : S3200000.Idx → BitVec 32) (i : S3200000.Idx) : wrapVec sv i = GraphNorm.wrapW (sv i) := rfl

/-! ## Degrees and normalisers -/

/-- Entry q of the degree vector is the degree of node q. -/
theorem degVec_apply (dv : S3200000.Idx → BitVec 32) (q : Fin 100000) :
    degVec dv (ix1 q) = GraphNorm.deg (fun e => dv (ix1 e)) q := by
  unfold degVec GraphNorm.deg
  rw [addf_apply, splat_apply]
  refine congrArg (· + Ideal.ofBits .f32 0x3F800000#32) ?_
  refine (LibSegmentIdx.scatterAdd_vec_apply (N := 100000) (E := 3200000)
    Facts₀.scatter_S100000_S3200000x1_S3200000_n_0_0_1_wf _ _ _ (ix1 q)).trans ?_
  rw [splat_apply]
  refine congrArg (Ideal.ofBits .f32 0x00000000#32 + ·) (Finset.sum_congr rfl fun e _ => ?_)
  rw [col_edges_apply, splat_apply]
  rfl

/-- The guarded reciprocal square root of any vector, at an entry. -/
theorem norm_core (D : FVec Ideal S100000 .f32) (q : Fin 100000) :
    select (cmpf (F := Ideal) .ogt D (broadcastInDim S100000 ![] bcast_S_S100000 (constant (F := Ideal) S_ .f32 0x00000000#32)))
      (Host.rsqrt (F := Ideal) D)
      (broadcastInDim S100000 ![] bcast_S_S100000 (constant (F := Ideal) S_ .f32 0x00000000#32)) (ix1 q)
    = GraphNorm.norm (D (ix1 q)) := by
  rw [select_apply, cmpf_apply, splat_apply]
  show Scalar.select _ (FloatOps.hostUnary .rsqrt (D (ix1 q))) _ = _
  generalize D (ix1 q) = d
  rfl

/-- Entry q of the normaliser vector is the normaliser of node q. -/
theorem disVec_apply (dv : S3200000.Idx → BitVec 32) (q : Fin 100000) :
    disVec dv (ix1 q) = GraphNorm.dis (fun e => dv (ix1 e)) q := by
  unfold disVec GraphNorm.dis
  exact (norm_core (degVec dv) q).trans (congrArg GraphNorm.norm (degVec_apply dv q))

/-! ## The result -/

/-- A word clamped into [0, 99999], as a node. -/
def posOf (w : BitVec 32) : Fin 100000 := ⟨min w.toInt.toNat (100000 - 1), by omega⟩

/-- The last operations over ARBITRARY vectors — a normaliser vector D, a signal h, destination words dv, already
    wrapped source words wv, a bias b — at entry (p, 0). -/
theorem tail_core (D : FVec Ideal S100000 .f32) (h : FVec Ideal S100000x1 .f32) (dv wv : S3200000.Idx → BitVec 32)
    (b : FVec Ideal S1 .f32) (p : Fin 100000) :
    addf (F := Ideal)
      (addf (F := Ideal)
        (mulf (F := Ideal)
          (broadcastInDim S100000x1 ![0] bcast_S100000_S100000x1_0 D)
          (Host.scatterAdd (F := Ideal) scatter_S100000x1_S3200000x1_S3200000x1_1_0_0_1
            (broadcastInDim S100000x1 ![] bcast_S_S100000x1 (constant (F := Ideal) S_ .f32 0x00000000#32))
            (broadcastInDim S3200000x1 ![0] bcast_S3200000_S3200000x1_0 dv)
            (Host.gather gather_S100000x1_S3200000x1_S3200000x1_1_0_n_n_0_1_11
              (mulf (F := Ideal) (broadcastInDim S100000x1 ![0] bcast_S100000_S100000x1_0 D) h)
              (broadcastInDim S3200000x1 ![0] bcast_S3200000_S3200000x1_0 wv))))
        (mulf (F := Ideal)
          (broadcastInDim S100000x1 ![0] bcast_S100000_S100000x1_0 (mulf (F := Ideal) D D))
          h))
      (broadcastInDim S100000x1 ![0, 1] bcast_S1x1_S100000x1_0_1 (broadcastInDim S1x1 ![1] bcast_S1_S1x1_1 b))
      (ix2 p (0 : Fin 1))
    = ((D (ix1 p) * (Ideal.ofBits .f32 0x00000000#32
          + ∑ e : Fin 3200000, if (dv (ix1 e)).toInt = (p.val : ℤ)
              then D (ix1 (posOf (wv (ix1 e)))) * h (ix2 (posOf (wv (ix1 e))) (0 : Fin 1)) else 0))
        + (D (ix1 p) * D (ix1 p)) * h (ix2 p (0 : Fin 1))) + b (ix1 (0 : Fin 1)) := by
  have hs : Host.scatterAdd (F := Ideal) scatter_S100000x1_S3200000x1_S3200000x1_1_0_0_1
        (broadcastInDim S100000x1 ![] bcast_S_S100000x1 (constant (F := Ideal) S_ .f32 0x00000000#32))
        (broadcastInDim S3200000x1 ![0] bcast_S3200000_S3200000x1_0 dv)
        (Host.gather gather_S100000x1_S3200000x1_S3200000x1_1_0_n_n_0_1_11
          (mulf (F := Ideal) (broadcastInDim S100000x1 ![0] bcast_S100000_S100000x1_0 D) h)
          (broadcastInDim S3200000x1 ![0] bcast_S3200000_S3200000x1_0 wv)) (ix2 p (0 : Fin 1))
      = Ideal.ofBits .f32 0x00000000#32
          + ∑ e : Fin 3200000, if (dv (ix1 e)).toInt = (p.val : ℤ)
              then D (ix1 (posOf (wv (ix1 e)))) * h (ix2 (posOf (wv (ix1 e))) (0 : Fin 1)) else 0 := by
    refine (LibSegmentIdx.scatterAdd_row_apply (N := 100000) (E := 3200000)
      Facts₀.scatter_S100000x1_S3200000x1_S3200000x1_1_0_0_1_wf _ _ _ (ix2 p (0 : Fin 1))).trans ?_
    rw [splat_apply]
    refine congrArg (Ideal.ofBits .f32 0x00000000#32 + ·) (Finset.sum_congr rfl fun e _ => ?_)
    rw [col_edges_apply]
    refine if_congr Iff.rfl ?_ rfl
    refine (LibSegmentIdx.gather_row_apply (N := 100000) (E := 3200000) (by decide)
      Facts₀.gather_S100000x1_S3200000x1_S3200000x1_1_0_n_n_0_1_11_wf _ _ (ix2 e (0 : Fin 1))).trans ?_
    show mulf (F := Ideal) (broadcastInDim S100000x1 ![0] bcast_S100000_S100000x1_0 D) h
        (ix2 (posOf (broadcastInDim S3200000x1 ![0] bcast_S3200000_S3200000x1_0 wv (ix2 e (0 : Fin 1)))) (0 : Fin 1)) = _
    rw [mulf_apply, col_nodes_apply, col_edges_apply]
  rw [addf_apply, addf_apply, bias_apply]
  refine congrArg (· + b (ix1 (0 : Fin 1))) ?_
  rw [mulf_apply (broadcastInDim S100000x1 ![0] bcast_S100000_S100000x1_0 (mulf (F := Ideal) D D)) h,
    col_nodes_apply, mulf_apply D D]
  refine congrArg (· + (D (ix1 p) * D (ix1 p)) * h (ix2 p (0 : Fin 1))) ?_
  rw [mulf_apply, col_nodes_apply, hs]

variable (ei : S2x3200000.Idx → BitVec 32)

/-- THE TAIL, ENTRY BY ENTRY: the whole-array operations after the region compute the factored form. -/
theorem tailOf_eq (h : FVec Ideal S100000x1 .f32) (b : FVec Ideal S1 .f32) :
    tailOf h ei b = fun i => GraphNorm.outFactored (fun e => ei (ix2 (0 : Fin 2) e)) (fun e => ei (ix2 (1 : Fin 2) e))
      (fun q => h (ix2 q (0 : Fin 1))) (b (ix1 (0 : Fin 1))) (i 0) := by
  funext i
  obtain ⟨p, rfl⟩ : ∃ p : Fin 100000, i = ix2 p (0 : Fin 1) := ⟨i 0, funext fun a => match a with
    | ⟨0, _⟩ => rfl
    | ⟨1, _⟩ => Fin.ext (by have := idx2_lt1 i; show (i 1).val = 0; omega)⟩
  have hdst : (fun e : Fin 3200000 => edgeRow1 ei (ix1 e)) = fun e => ei (ix2 (1 : Fin 2) e) :=
    funext fun e => edgeRow1_apply ei e
  have hdis : ∀ q : Fin 100000, disVec (edgeRow1 ei) (ix1 q) = GraphNorm.dis (fun e => ei (ix2 (1 : Fin 2) e)) q :=
    fun q => by rw [disVec_apply, hdst]
  unfold tailOf
  refine (tail_core (disVec (edgeRow1 ei)) h (edgeRow1 ei) (wrapVec (edgeRow0 ei)) b p).trans ?_
  -- the sum over the edges, summand by summand: the program's words are the edge list's, and a wrapped word
  -- clamped is the node the word is read as
  have hsum : (∑ e : Fin 3200000, if (edgeRow1 ei (ix1 e)).toInt = (p.val : ℤ)
        then disVec (edgeRow1 ei) (ix1 (posOf (wrapVec (edgeRow0 ei) (ix1 e))))
          * h (ix2 (posOf (wrapVec (edgeRow0 ei) (ix1 e))) (0 : Fin 1)) else 0)
      = ∑ e : Fin 3200000, if (ei (ix2 (1 : Fin 2) e)).toInt = (p.val : ℤ)
        then GraphNorm.dis (fun e => ei (ix2 (1 : Fin 2) e)) (GraphNorm.pos (ei (ix2 (0 : Fin 2) e)))
          * h (ix2 (GraphNorm.pos (ei (ix2 (0 : Fin 2) e))) (0 : Fin 1)) else 0 :=
    Finset.sum_congr rfl fun e _ => by
      rw [edgeRow1_apply, wrapVec_apply, edgeRow0_apply, hdis]
      rfl
  rw [hsum, hdis p]
  rfl

end Cert.KernelIdeal.Tail

end
-- ==== Proof.KernelTail.lean ====
/-
  After its one pipelined region has left the projected node signal h = x · W in memory, the program finishes the
  graph convolution with whole-array operations: the two rows of the edge list are cut out as the source and the
  destination words; the degrees are a segment sum of ones over the destinations, plus one; the normaliser is
  deg ^ (−1/2) where deg > 0; the messages are the normalised signal gathered at the sources (a negative source word
  wrapped once) and segment-summed over the destinations; and the result is the normaliser times that sum, plus
  the squared normaliser times the signal, plus the bias. Proved here: the result array is, entry by entry, the
  factored form of the convolution stated once as a function of the four argument arrays.

  The forty-five operations are run in three stretches — before, inside and after the guarded select of the
  normaliser — each from ARBITRARY buffer contents, so that where the select is met the degree vector is a variable and
  no sum over the edges is ever opened; composed, they are the named function `tailOf` of the region's output array,
  the edge list and the bias, whose entries KernelTailEntry reads.
-/
import proofs.«101846_j34256659153432_2_alg».proof.Proof.Gen.KernelIdeal.Frame
import proofs.«101846_j34256659153432_2_alg».proof.Proof.KernelProj
import proofs.«101846_j34256659153432_2_alg».proof.Proof.KernelTailDefs
import proofs.«101846_j34256659153432_2_alg».proof.Proof.KernelTailEntry
import proofs.«101846_j34256659153432_2_alg».proof.Proof.GraphNorm
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem Idealize.ShloMosaic.ValueIdx Cert.KernelIdeal Cert.KernelIdeal.Gen
open Idealize.ShloMosaic.StableHlo

namespace Cert.KernelIdeal.Tail

/-- Running one list of operations after another. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

variable (V : Valuation τ sig (Elt Ideal))

/-! ## The operations before the guarded select

From any buffer contents V, the first eighteen operations leave: the source and destination rows of the edge list, the
comparison "degree > 0" and the reciprocal square root of the degree vector, the zero scalar; the region's output array
and the bias are not touched. -/
theorem s1_v2 : after hostOps1 V (Proc.devRef .tc main_v2) = edgeRow0 (V (Proc.devRef .tc main_arg1)) := by
  simp only [hostOps1]; after_results; rfl
theorem s1_v4 : after hostOps1 V (Proc.devRef .tc main_v4) = edgeRow1 (V (Proc.devRef .tc main_arg1)) := by
  simp only [hostOps1]; after_results; rfl
theorem s1_v12 : after hostOps1 V (Proc.devRef .tc main_v12)
    = cmpf (F := Ideal) .ogt (degVec (edgeRow1 (V (Proc.devRef .tc main_arg1))))
        (broadcastInDim S100000 ![] bcast_S_S100000 (constant (F := Ideal) S_ .f32 0x00000000#32)) := by
  simp only [hostOps1]; after_results; rfl
theorem s1_v13 : after hostOps1 V (Proc.devRef .tc main_v13)
    = Host.rsqrt (F := Ideal) (degVec (edgeRow1 (V (Proc.devRef .tc main_arg1)))) := by
  simp only [hostOps1]; after_results; rfl
theorem s1_cst3 : after hostOps1 V (Proc.devRef .tc main_cst_3) = constant (F := Ideal) S_ .f32 0x00000000#32 := by
  simp only [hostOps1]; after_results
theorem s1_v0 : after hostOps1 V (Proc.devRef .tc main_v0) = V (Proc.devRef .tc main_v0) := by
  simp only [hostOps1]; after_results
theorem s1_arg3 : after hostOps1 V (Proc.devRef .tc main_arg3) = V (Proc.devRef .tc main_arg3) := by
  simp only [hostOps1]; after_results

/-! ## The guarded select

Its three operations read the comparison, the reciprocal square root and the zero scalar, whatever they hold, and leave
the select of the three; nothing else that is read later is touched. -/

/-- select of a condition, a value and a splat scalar, all arbitrary. -/
def guardSel (c : IVec S100000 1) (a : FVec Ideal S100000 .f32) (z : FVec Ideal S_ .f32) : FVec Ideal S100000 .f32 :=
  select c a (broadcastInDim S100000 ![] bcast_S_S100000 z)

theorem s2_v14 : after hostOps1_1 V (Proc.devRef .tc main_v14)
    = guardSel (V (Proc.devRef .tc main_v12)) (V (Proc.devRef .tc main_v13)) (V (Proc.devRef .tc main_cst_3)) := by
  simp only [hostOps1_1]; after_results; first | done | rfl
theorem s2_v0 : after hostOps1_1 V (Proc.devRef .tc main_v0) = V (Proc.devRef .tc main_v0) := by
  simp only [hostOps1_1]; after_results
theorem s2_v2 : after hostOps1_1 V (Proc.devRef .tc main_v2) = V (Proc.devRef .tc main_v2) := by
  simp only [hostOps1_1]; after_results
theorem s2_v4 : after hostOps1_1 V (Proc.devRef .tc main_v4) = V (Proc.devRef .tc main_v4) := by
  simp only [hostOps1_1]; after_results
theorem s2_arg3 : after hostOps1_1 V (Proc.devRef .tc main_arg3) = V (Proc.devRef .tc main_arg3) := by
  simp only [hostOps1_1]; after_results

/-! ## The operations after the guarded select

The last twenty-four operations read the normaliser vector, the region's output array, the two word rows and the bias,
whatever they hold: stated over arbitrary contents, so that the normaliser is a variable here. -/

/-- The last operations from an arbitrary normaliser vector N, signal h, destination and source words, bias. -/
def lastOps (N : FVec Ideal S100000 .f32) (h : FVec Ideal S100000x1 .f32) (dv sv : S3200000.Idx → BitVec 32)
    (b : FVec Ideal S1 .f32) : FVec Ideal S100000x1 .f32 :=
  addf (F := Ideal)
    (addf (F := Ideal)
      (mulf (F := Ideal)
        (broadcastInDim S100000x1 ![0] bcast_S100000_S100000x1_0 N)
        (Host.scatterAdd (F := Ideal) scatter_S100000x1_S3200000x1_S3200000x1_1_0_0_1
          (broadcastInDim S100000x1 ![] bcast_S_S100000x1 (constant (F := Ideal) S_ .f32 0x00000000#32))
          (broadcastInDim S3200000x1 ![0] bcast_S3200000_S3200000x1_0 dv)
          (Host.gather gather_S100000x1_S3200000x1_S3200000x1_1_0_n_n_0_1_11
            (mulf (F := Ideal) (broadcastInDim S100000x1 ![0] bcast_S100000_S100000x1_0 N) h)
            (broadcastInDim S3200000x1 ![0] bcast_S3200000_S3200000x1_0 (wrapVec sv)))))
      (mulf (F := Ideal)
        (broadcastInDim S100000x1 ![0] bcast_S100000_S100000x1_0 (mulf (F := Ideal) N N))
        h))
    (broadcastInDim S100000x1 ![0, 1] bcast_S1x1_S100000x1_0_1 (broadcastInDim S1x1 ![1] bcast_S1_S1x1_1 b))

set_option maxHeartbeats 2000000 in
theorem s3_v35 : after hostOps1_2 V (Proc.devRef .tc main_v35)
    = lastOps (V (Proc.devRef .tc main_v14)) (V (Proc.devRef .tc main_v0)) (V (Proc.devRef .tc main_v4))
        (V (Proc.devRef .tc main_v2)) (V (Proc.devRef .tc main_arg3)) := by
  simp only [hostOps1_2]; after_results; first | done | rfl

/-- The three stretches in a row. -/
theorem after_tail (W : Valuation τ sig (Elt Ideal)) :
    after (List.flatten ([hostOps1, hostOps1_1, hostOps1_2] : List (List (HloOp τ sig (Elt Ideal))))) W
        (Proc.devRef .tc main_v35)
      = tailOf (W (Proc.devRef .tc main_v0)) (W (Proc.devRef .tc main_arg1)) (W (Proc.devRef .tc main_arg3)) := by
  rw [List.flatten_cons, List.flatten_cons, List.flatten_cons, List.flatten_nil, List.append_nil, after_append, after_append,
    s3_v35, s2_v14, s2_v0, s2_v4, s2_v2, s2_arg3, s1_v12, s1_v13, s1_cst3, s1_v0, s1_v4, s1_v2, s1_arg3]
  unfold tailOf disVec lastOps guardSel
  generalize degVec (edgeRow1 (W (Proc.devRef .tc main_arg1))) = Dg
  rfl

/-! ## The result buffer -/

/-- THE TAIL'S VALUE: after the region and the operations that follow it, the result buffer holds the convolution's
    result function of the four argument arrays. The operations start from the region's arrays — its output array the
    projection x · W (KernelProj), the edge list and the bias as launched — and `tailOf` of those is the factored
    form, entry by entry (KernelTailEntry). -/
theorem tail_value (m : (ℓ : Loc nD τ sig) → Buf (Elt Ideal) ℓ) (c : Dev nD) :
    Pipeline.afterTail₀ cfgs (Gen.dats (F := Ideal) m) 0 (Gen.V0 m) [hostOps1, hostOps1_1, hostOps1_2] c main_v35
      = GraphNorm.result (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  refine (after_tail _).trans ?_
  have h0 : Pipeline.withArrays (cfgs 0).spec c (V0 m c) (fun w => (dats (F := Ideal) m 0 c).arrAt w (cfgs 0).N)
        (Proc.devRef .tc main_v0)
      = Proj.hproj (m ((c.tc : Thread nD τ).loc main_arg0)) (m ((c.tc : Thread nD τ).loc main_arg2)) :=
    (Pipeline.withArrays_arr spec0 launch0.win.arr_inj c _ _ 2).trans (Proj.final m c)
  have h1 : Pipeline.withArrays (cfgs 0).spec c (V0 m c) (fun w => (dats (F := Ideal) m 0 c).arrAt w (cfgs 0).N)
        (Proc.devRef .tc main_arg1) = m ((c.tc : Thread nD τ).loc main_arg1) :=
    (Pipeline.withArrays_of_ne _ c (V0 m c) _ main_arg1
      (by exact (by decide : ∀ w, Pipeline.arrRef spec0 w ≠ main_arg1))).trans (V_main_arg1 m c)
  have h3 : Pipeline.withArrays (cfgs 0).spec c (V0 m c) (fun w => (dats (F := Ideal) m 0 c).arrAt w (cfgs 0).N)
        (Proc.devRef .tc main_arg3) = m ((c.tc : Thread nD τ).loc main_arg3) :=
    (Pipeline.withArrays_of_ne _ c (V0 m c) _ main_arg3
      (by exact (by decide : ∀ w, Pipeline.arrRef spec0 w ≠ main_arg3))).trans (V_main_arg3 m c)
  rw [h0, h1, h3, tailOf_eq]
  rfl

end Cert.KernelIdeal.Tail

end
-- ==== Proof.RefEdges.lean ====
/-
  The reference's edge list: the 3200000 given edges followed by one self-loop per node.

  The reference appends to the 2 × 3200000 array of edge words the 2 × 100000 array whose two rows are both
  0, 1, …, 99999, and takes row 0 of the result as the sources and row 1 as the destinations. So position e of either
  row is the given word at (row, e) when e < 3200000, and the word of the number e − 3200000 otherwise.
-/
import proofs.«101846_j34256659153432_2_alg».proof.Proof.ReadP
import Idealize.ShloMosaic.Lib.ValueIdx
import Idealize.ShloMosaic.Lib.Pipeline.Value

noncomputable section

namespace Cert.ReferenceIdeal.RefEdges

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

variable (x1 : (⟨S2x3200000, .i32⟩ : BufTy).Contents (Elt Ideal))

/-- The looped list at (row r, position n) with n among the given edges is the given word there. -/
theorem joined_left (r : Fin 2) (n : ℕ) (hn : n < 3200000) :
    val_main_v3 (F := Ideal) x1 (ix2 r (⟨n, by omega⟩ : Fin 3300000)) = x1 (ix2 r (⟨n, hn⟩ : Fin 3200000)) := by
  unfold val_main_v3
  refine concatenate_pair_apply_left (t := S2x3300000) (s₁ := S2x3200000) (s₂ := S2x100000) (1 : Fin 2) x1 (val_main_v2 (F := Ideal))
    concatenates_S2x3200000_S2x100000_S2x3300000_d1 _ rfl (ix2 r (⟨n, hn⟩ : Fin 3200000)) (fun b => ?_)
  match b with
  | ⟨0, _⟩ => rfl
  | ⟨1, _⟩ => rfl

/-- The looped list at (row r, position 3200000 + j) is the word of the number j. -/
theorem joined_right (r : Fin 2) (j : ℕ) (hj : j < 100000) :
    val_main_v3 (F := Ideal) x1 (ix2 r (⟨3200000 + j, by omega⟩ : Fin 3300000)) = BitVec.ofNat 32 j := by
  unfold val_main_v3
  refine (concatenate_pair_apply_right (t := S2x3300000) (s₁ := S2x3200000) (s₂ := S2x100000) (1 : Fin 2) x1 (val_main_v2 (F := Ideal))
    concatenates_S2x3200000_S2x100000_S2x3300000_d1 _ rfl rfl (ix2 r (⟨j, hj⟩ : Fin 100000)) (fun b hb => ?_) ?_).trans ?_
  · match b with
    | ⟨0, _⟩ => rfl
    | ⟨1, _⟩ => exact absurd rfl hb
  · show j + 3200000 = 3200000 + j
    omega
  · rw [val_main_v2_apply, val_main_v1_apply, val_main_v0_apply]

/-- The source word at position e of the looped list. -/
def srcL (e : Fin 3300000) : BitVec 32 := val_main_v5 (F := Ideal) x1 (ix1 e)
/-- The destination word at position e of the looped list. -/
def dstL (e : Fin 3300000) : BitVec 32 := val_main_v7 (F := Ideal) x1 (ix1 e)

/-- Sources are row 0 of the looped list. -/
theorem srcL_eq (n : ℕ) (hn : n < 3300000) :
    srcL x1 ⟨n, hn⟩ = val_main_v3 (F := Ideal) x1 (ix2 (0 : Fin 2) (⟨n, hn⟩ : Fin 3300000)) := by
  unfold srcL
  rw [val_main_v5_apply, val_main_v4_apply]
  refine congrArg (val_main_v3 (F := Ideal) x1) (funext fun a => Fin.ext ?_)
  match a with
  | ⟨0, _⟩ => rfl
  | ⟨1, _⟩ => exact Nat.mod_eq_of_lt hn

/-- Destinations are row 1 of the looped list. -/
theorem dstL_eq (n : ℕ) (hn : n < 3300000) :
    dstL x1 ⟨n, hn⟩ = val_main_v3 (F := Ideal) x1 (ix2 (1 : Fin 2) (⟨n, hn⟩ : Fin 3300000)) := by
  unfold dstL
  rw [val_main_v7_apply, val_main_v6_apply]
  refine congrArg (val_main_v3 (F := Ideal) x1) (funext fun a => Fin.ext ?_)
  match a with
  | ⟨0, _⟩ => rfl
  | ⟨1, _⟩ => exact Nat.mod_eq_of_lt hn

theorem srcL_left (e : Fin 3200000) : srcL x1 ⟨e.val, by omega⟩ = x1 (ix2 (0 : Fin 2) e) := by
  rw [srcL_eq]; exact joined_left x1 0 e.val e.isLt
theorem srcL_right (j : Fin 100000) : srcL x1 ⟨3200000 + j.val, by omega⟩ = BitVec.ofNat 32 j.val := by
  rw [srcL_eq]; exact joined_right x1 0 j.val j.isLt
theorem dstL_left (e : Fin 3200000) : dstL x1 ⟨e.val, by omega⟩ = x1 (ix2 (1 : Fin 2) e) := by
  rw [dstL_eq]; exact joined_left x1 1 e.val e.isLt
theorem dstL_right (j : Fin 100000) : dstL x1 ⟨3200000 + j.val, by omega⟩ = BitVec.ofNat 32 j.val := by
  rw [dstL_eq]; exact joined_right x1 1 j.val j.isLt

end Cert.ReferenceIdeal.RefEdges

end
-- ==== Proof.RefValue.lean ====
/-
  The reference program's result, entry by entry, is the convolution's factored form.

  Read one operation at a time, the reference computes at node p the per-edge form over the edge list with the
  self-loops appended (`GraphNorm.outLoops`): degrees by a segment sum of ones over the looped destinations, the
  normaliser of each degree, the two normalisers and the projected feature gathered at each edge's ends (each index
  word wrapped once if negative and clamped), their product summed into the edge's destination, the bias added. The
  law of GraphNorm then turns it into the factored form over the bare edge list — the function the kernel computes.
-/
import proofs.«101846_j34256659153432_2_alg».proof.Proof.ReadP
import proofs.«101846_j34256659153432_2_alg».proof.Proof.RefEdges
import proofs.«101846_j34256659153432_2_alg».proof.Proof.GraphNorm
import proofs.«101846_j34256659153432_2_alg».proof.Proof.LibSegmentIdx
import Idealize.ShloMosaic.Lib.ValueIdx

noncomputable section

namespace Cert.ReferenceIdeal.RefValue

open Cert.ReferenceIdeal Cert.ReferenceIdeal.Gen Cert.ReferenceIdeal.ReadP Cert.ReferenceIdeal.RefEdges Idealize.ShloMosaic
  Idealize.ShloMosaic.TcCoe Idealize.SL.Sem Idealize.ShloMosaic.StableHlo Idealize.ShloMosaic.ValueIdx

variable (x0 : (⟨S100000x256, .f32⟩ : BufTy).Contents (Elt Ideal)) (x1 : (⟨S2x3200000, .i32⟩ : BufTy).Contents (Elt Ideal))
  (x2 : (⟨S256x1, .f32⟩ : BufTy).Contents (Elt Ideal)) (x3 : (⟨S1, .f32⟩ : BufTy).Contents (Elt Ideal))

/-! ## Index words: wrapped once if negative -/

theorem wrapped_src (e : Fin 3300000) : val_main_v20 (F := Ideal) x1 (ix1 e) = GraphNorm.wrapW (srcL x1 e) := by
  rw [val_main_v20_apply, val_main_v17_apply, val_main_v19_apply, val_main_v16_apply, val_main_v18_apply,
    val_main_c_apply, val_main_c_3_apply]
  rfl

theorem wrapped_dst (e : Fin 3300000) : val_main_v27 (F := Ideal) x1 (ix1 e) = GraphNorm.wrapW (dstL x1 e) := by
  rw [val_main_v27_apply, val_main_v24_apply, val_main_v26_apply, val_main_v23_apply, val_main_v25_apply,
    val_main_c_4_apply, val_main_c_5_apply]
  rfl

theorem wrapped_src' (e : Fin 3300000) : val_main_v37 (F := Ideal) x1 (ix1 e) = GraphNorm.wrapW (srcL x1 e) := by
  rw [val_main_v37_apply, val_main_v34_apply, val_main_v36_apply, val_main_v33_apply, val_main_v35_apply,
    val_main_c_6_apply, val_main_c_7_apply]
  rfl

/-- Row e of an index column [3300000, 1] made from a vector is the vector's entry e. -/
theorem col_idx (e : Fin 3300000) : (fun a : Fin 1 => match a with
    | ⟨0, _⟩ => (⟨((ix2 e (0 : Fin 1) : S3300000x1.Idx) 0).val, ((ix2 e (0 : Fin 1) : S3300000x1.Idx) 0).isLt⟩ : Fin 3300000))
    = (ix1 e : S3300000.Idx) := funext fun a => match a with | ⟨0, _⟩ => rfl

theorem col_src (e : Fin 3300000) : val_main_v21 (F := Ideal) x1 (ix2 e (0 : Fin 1)) = GraphNorm.wrapW (srcL x1 e) := by
  rw [val_main_v21_apply]
  exact (congrArg (val_main_v20 (F := Ideal) x1) (col_idx e)).trans (wrapped_src x1 e)

theorem col_dst (e : Fin 3300000) : val_main_v28 (F := Ideal) x1 (ix2 e (0 : Fin 1)) = GraphNorm.wrapW (dstL x1 e) := by
  rw [val_main_v28_apply]
  exact (congrArg (val_main_v27 (F := Ideal) x1) (col_idx e)).trans (wrapped_dst x1 e)

theorem col_src' (e : Fin 3300000) : val_main_v38 (F := Ideal) x1 (ix2 e (0 : Fin 1)) = GraphNorm.wrapW (srcL x1 e) := by
  rw [val_main_v38_apply]
  exact (congrArg (val_main_v37 (F := Ideal) x1) (col_idx e)).trans (wrapped_src' x1 e)

/-- The raw destination column, as the two segment sums read it. -/
theorem col_dst_raw (e : Fin 3300000) : val_main_v10 (F := Ideal) x1 (ix2 e (0 : Fin 1)) = dstL x1 e := by
  rw [val_main_v10_apply]
  exact congrArg (val_main_v7 (F := Ideal) x1) (col_idx e)

theorem col_dst_raw' (e : Fin 3300000) : val_main_v42 (F := Ideal) x1 (ix2 e (0 : Fin 1)) = dstL x1 e := by
  rw [val_main_v42_apply]
  exact congrArg (val_main_v7 (F := Ideal) x1) (col_idx e)

/-- A wrapped word clamped into [0, 99999] is the node the word is read as. -/
theorem pos_of_col (w v : BitVec 32) (h : w = GraphNorm.wrapW v) :
    (⟨min w.toInt.toNat (100000 - 1), by omega⟩ : Fin 100000) = GraphNorm.pos v := by
  subst h; rfl

/-! ## Degrees and normalisers -/

theorem deg_eq (q : Fin 100000) : val_main_v11 (F := Ideal) x1 (ix1 q) = GraphNorm.degLoops (dstL x1) q := by
  unfold val_main_v11 GraphNorm.degLoops
  refine (LibSegmentIdx.scatterAdd_vec_apply (N := 100000) (E := 3300000)
    Facts₀.scatter_S100000_S3300000x1_S3300000_n_0_0_1_wf (val_main_v9 (F := Ideal)) (val_main_v10 (F := Ideal) x1)
    (val_main_v8 (F := Ideal)) (ix1 q)).trans ?_
  simp only [val_main_v9_apply, val_main_cst_0_apply, col_dst_raw, val_main_v8_apply, val_main_cst_apply]
  rfl

theorem dis_eq (q : Fin 100000) :
    val_main_v15 (F := Ideal) x1 (ix1 q) = GraphNorm.norm (GraphNorm.degLoops (dstL x1) q) := by
  rw [val_main_v15_apply, val_main_v13_apply, val_main_v14_apply, val_main_v12_apply, val_main_cst_1_apply,
    val_main_call0_v1_apply, val_main_call0_v0_apply, val_main_cst_2_apply, deg_eq]
  generalize GraphNorm.degLoops (dstL x1) q = D
  rfl

/-! ## The projected feature -/

theorem proj_eq (q : Fin 100000) :
    val_main_v31 (F := Ideal) x0 x2 (ix2 q (0 : Fin 1)) = ∑ k : Fin 256, x0 (ix2 q k) * x2 (ix2 k (0 : Fin 1)) := by
  rw [val_main_v31_apply]
  refine Finset.sum_congr rfl fun k _ => ?_
  have el : lidx_main_v31 (ix2 q (0 : Fin 1)) k = ix2 q k := funext fun a => match a with
    | ⟨0, _⟩ => rfl
    | ⟨1, _⟩ => rfl
  have er : ridx_main_v31 (ix2 q (0 : Fin 1)) k = ix2 k (0 : Fin 1) := funext fun a => match a with
    | ⟨0, _⟩ => rfl
    | ⟨1, _⟩ => rfl
  rw [el, er]

/-! ## What is gathered at an edge's ends -/

theorem norm_src (e : Fin 3300000) : val_main_v22 (F := Ideal) x1 (ix1 e)
    = GraphNorm.norm (GraphNorm.degLoops (dstL x1) (GraphNorm.pos (srcL x1 e))) := by
  unfold val_main_v22
  exact (LibSegmentIdx.gather_vec_apply (N := 100000) (E := 3300000) (by decide)
    Facts₀.gather_S100000_S3300000x1_S3300000_n_0_n_n_0_1_1_wf (val_main_v15 (F := Ideal) x1)
    (val_main_v21 (F := Ideal) x1) (ix1 e)).trans
    ((congrArg (fun p : Fin 100000 => val_main_v15 (F := Ideal) x1 (ix1 p)) (pos_of_col _ _ (col_src x1 e))).trans
      (dis_eq x1 _))

theorem norm_dst (e : Fin 3300000) : val_main_v29 (F := Ideal) x1 (ix1 e)
    = GraphNorm.norm (GraphNorm.degLoops (dstL x1) (GraphNorm.pos (dstL x1 e))) := by
  unfold val_main_v29
  exact (LibSegmentIdx.gather_vec_apply (N := 100000) (E := 3300000) (by decide)
    Facts₀.gather_S100000_S3300000x1_S3300000_n_0_n_n_0_1_1_wf (val_main_v15 (F := Ideal) x1)
    (val_main_v28 (F := Ideal) x1) (ix1 e)).trans
    ((congrArg (fun p : Fin 100000 => val_main_v15 (F := Ideal) x1 (ix1 p)) (pos_of_col _ _ (col_dst x1 e))).trans
      (dis_eq x1 _))

theorem proj_src (e : Fin 3300000) : val_main_v39 (F := Ideal) x0 x1 x2 (ix2 e (0 : Fin 1))
    = ∑ k : Fin 256, x0 (ix2 (GraphNorm.pos (srcL x1 e)) k) * x2 (ix2 k (0 : Fin 1)) := by
  unfold val_main_v39
  exact (LibSegmentIdx.gather_row_apply (N := 100000) (E := 3300000) (by decide)
    Facts₀.gather_S100000x1_S3300000x1_S3300000x1_1_0_n_n_0_1_11_wf (val_main_v31 (F := Ideal) x0 x2)
    (val_main_v38 (F := Ideal) x1) (ix2 e (0 : Fin 1))).trans
    ((congrArg (fun p : Fin 100000 => val_main_v31 (F := Ideal) x0 x2 (ix2 p (0 : Fin 1)))
      (pos_of_col _ _ (col_src' x1 e))).trans (proj_eq x0 x2 _))

/-- The message of edge e: the two ends' normalisers times the source's projected feature. -/
theorem msg_eq (e : Fin 3300000) : val_main_v40 (F := Ideal) x0 x1 x2 (ix2 e (0 : Fin 1))
    = (GraphNorm.norm (GraphNorm.degLoops (dstL x1) (GraphNorm.pos (srcL x1 e)))
        * GraphNorm.norm (GraphNorm.degLoops (dstL x1) (GraphNorm.pos (dstL x1 e))))
      * ∑ k : Fin 256, x0 (ix2 (GraphNorm.pos (srcL x1 e)) k) * x2 (ix2 k (0 : Fin 1)) := by
  rw [val_main_v40_apply, val_main_v32_apply, proj_src]
  have h30 : val_main_v30 (F := Ideal) x1 (idx_main_v32 (ix2 e (0 : Fin 1)))
      = GraphNorm.norm (GraphNorm.degLoops (dstL x1) (GraphNorm.pos (srcL x1 e)))
        * GraphNorm.norm (GraphNorm.degLoops (dstL x1) (GraphNorm.pos (dstL x1 e))) := by
    refine (congrArg (val_main_v30 (F := Ideal) x1) (col_idx e)).trans ?_
    rw [val_main_v30_apply, norm_src, norm_dst]
    rfl
  rw [h30]
  rfl

/-! ## The result -/

/-- Entry (p, 0) of the reference's result is the per-edge form over the looped edge list. -/
theorem value_eq (p : Fin 100000) : val_main_v46 (F := Ideal) x0 x1 x2 x3 (ix2 p (0 : Fin 1))
    = GraphNorm.outLoops (srcL x1) (dstL x1) (fun q => ∑ k : Fin 256, x0 (ix2 q k) * x2 (ix2 k (0 : Fin 1)))
        (x3 (ix1 (0 : Fin 1))) p := by
  have hb : val_main_v45 (F := Ideal) x3 (ix2 p (0 : Fin 1)) = x3 (ix1 (0 : Fin 1)) := by
    rw [val_main_v45_apply, val_main_v44_apply]
    exact congrArg x3 (funext fun a => match a with | ⟨0, _⟩ => rfl)
  have hs : val_main_v43 (F := Ideal) x0 x1 x2 (ix2 p (0 : Fin 1))
      = Ideal.ofBits .f32 0x00000000#32
        + ∑ e : Fin 3300000, if (dstL x1 e).toInt = (p.val : ℤ)
            then (GraphNorm.norm (GraphNorm.degLoops (dstL x1) (GraphNorm.pos (srcL x1 e)))
                * GraphNorm.norm (GraphNorm.degLoops (dstL x1) (GraphNorm.pos (dstL x1 e))))
              * ∑ k : Fin 256, x0 (ix2 (GraphNorm.pos (srcL x1 e)) k) * x2 (ix2 k (0 : Fin 1)) else 0 := by
    unfold val_main_v43
    refine (LibSegmentIdx.scatterAdd_row_apply (N := 100000) (E := 3300000)
      Facts₀.scatter_S100000x1_S3300000x1_S3300000x1_1_0_0_1_wf (val_main_v41 (F := Ideal))
      (val_main_v42 (F := Ideal) x1) (val_main_v40 (F := Ideal) x0 x1 x2) (ix2 p (0 : Fin 1))).trans ?_
    simp only [val_main_v41_apply, val_main_cst_8_apply, col_dst_raw', msg_eq]
    rfl
  rw [val_main_v46_apply, hs, hb]
  rfl

/-- THE REFERENCE'S RESULT is the convolution's result function of the four argument arrays. -/
theorem ref_value : val_main_v46 (F := Ideal) x0 x1 x2 x3 = GraphNorm.result x0 x1 x2 x3 := by
  funext i
  obtain ⟨p, rfl⟩ : ∃ p : Fin 100000, i = ix2 p (0 : Fin 1) := ⟨i 0, funext fun a => match a with
    | ⟨0, _⟩ => rfl
    | ⟨1, _⟩ => Fin.ext (by have := idx2_lt1 i; show (i 1).val = 0; omega)⟩
  rw [value_eq]
  exact GraphNorm.outLoops_eq_outFactored _ _ (srcL x1) (dstL x1) (srcL_left x1) (srcL_right x1) (dstL_left x1)
    (dstL_right x1) _ _ p

end Cert.ReferenceIdeal.RefValue

end
-- ==== Proof.lean ====
/-
  A one-channel graph convolution with symmetric normalisation (100000 nodes, 3200000 edges, 256 input features):
  the kernel program against its reference, at exact arithmetic.

  Both programs compute, at node p,

      out p  =  Σ_{edges e into p} d(src e) · d(p) · h(src e)  +  d(p)² · h(p)  +  b ,     h = x · W ,   d = deg^(−1/2) ,

  where deg p is one more than the number of edges into p. The reference appends one self-loop per node to the edge
  list and sums d(src e) · d(dst e) · h(src e) over the edges of the longer list into their destinations; the kernel
  computes h block by block on the matrix unit, folds d(src e) into h before the one gather, takes the factor d(p) out
  of the sum over the edges into p, and adds the self-loop's term d(p)² · h(p) and the "+ 1" of the degree by hand.
  An edge word is counted at a node only if, read as a signed integer, it is that node's number (a word out of range is
  counted nowhere, in both programs), and a word is read as a node by wrapping it once if negative and clamping it
  (in both programs); for an edge counted at p the destination is read as p, which is what lets d(p) come out. The
  normaliser d(p) is a non-negative REAL (the degree is a real number ≥ 1), and a non-negative real factor distributes
  over a finite sum of extended reals whatever the summands — so the two results agree on every input, and the
  precondition (finite float inputs) is never opened. The change of float format of the matrix unit's operands is
  the identity at exact arithmetic, and its product into a zero accumulator is the host's product.

  The modules: GraphNorm (the two forms of the convolution and the law joining them, no program), LibSegmentIdx (a
  gather and a segment sum along the leading axis read at an index), KernelProj (the region's array is x · W),
  KernelTail (the kernel's host operations after the region give the factored form), RefEdges and RefValue (the
  reference gives the per-edge form over the looped list, hence the factored form). Here: the three frames, the empty
  list of idealization rewrites, and the two runs ending at one function of the argument arrays.
-/
import proofs.«101846_j34256659153432_2_alg».proof.Defs
import proofs.«101846_j34256659153432_2_alg».proof.Proof.Gen.Kernel
import proofs.«101846_j34256659153432_2_alg».proof.Proof.Gen.Kernel.Skeleton
import proofs.«101846_j34256659153432_2_alg».proof.Proof.Gen.Kernel.Launch
import proofs.«101846_j34256659153432_2_alg».proof.Proof.Gen.Kernel.Points
import proofs.«101846_j34256659153432_2_alg».proof.Proof.Gen.Kernel.Frame
import proofs.«101846_j34256659153432_2_alg».proof.Proof.Gen.KernelIdeal
import proofs.«101846_j34256659153432_2_alg».proof.Proof.Gen.KernelIdeal.Skeleton
import proofs.«101846_j34256659153432_2_alg».proof.Proof.Gen.KernelIdeal.Launch
import proofs.«101846_j34256659153432_2_alg».proof.Proof.Gen.KernelIdeal.Points
import proofs.«101846_j34256659153432_2_alg».proof.Proof.Gen.KernelIdeal.Frame
import proofs.«101846_j34256659153432_2_alg».proof.Proof.Gen.ReferenceIdeal
import proofs.«101846_j34256659153432_2_alg».proof.Proof.Gen.Pre_finite_inputs
import proofs.«101846_j34256659153432_2_alg».proof.Proof.RunP
import proofs.«101846_j34256659153432_2_alg».proof.Proof.ReadP
import proofs.«101846_j34256659153432_2_alg».proof.Proof.GraphNorm
import proofs.«101846_j34256659153432_2_alg».proof.Proof.KernelProj
import proofs.«101846_j34256659153432_2_alg».proof.Proof.KernelTail
import proofs.«101846_j34256659153432_2_alg».proof.Proof.RefValue
import Idealize.ShloMosaic.Adequacy
import Idealize.ShloMosaic.Init

noncomputable section

namespace Cert.Proof

open Idealize.ShloMosaic Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-! ## The kernel program's run, its result named -/

section KernelRun
open Cert.KernelIdeal Cert.KernelIdeal.Gen

/-- Every weakly fair execution of the idealized kernel program terminates with its result buffer at the
    convolution's result function of the argument arrays, and the arguments unchanged: the region's array is the
    projection x · W, and the host operations after the region make the factored form of it. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
          = GraphNorm.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v35 (Pipeline.mem_restRefs_of main_v35 (by decide) (by decide))).trans
        (Cert.KernelIdeal.Tail.tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end KernelRun

/-! ## The claims -/

/-- The idealization rewrote no operation: nothing to restate. -/
theorem preserves : Cert.preserves_Kernel_KernelIdeal := trivial

/-- From memories agreeing on the arguments both programs end at the convolution's result function of them. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, Cert.ReferenceIdeal.RefValue.ref_value, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
